-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x256 : Shape := ⟨2, ![256, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S131072x256 .f32) (main_arg1 : FVec F S256x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S131072x256 : Shape := ⟨2, ![131072, 256]⟩
abbrev S256x256 : Shape := ⟨2, ![256, 256]⟩
abbrev S_ : Shape := ⟨0, ![]⟩
abbrev S256 : Shape := ⟨1, ![256]⟩
abbrev S1x256 : Shape := ⟨2, ![1, 256]⟩
abbrev S2048x256 : Shape := ⟨2, ![2048, 256]⟩
abbrev S2048 : Shape := ⟨1, ![2048]⟩
abbrev S2048x1 : Shape := ⟨2, ![2048, 1]⟩

abbrev nBuf : Space → Nat
  | .hbm => 8
  | .vmem => 6
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S256x256, .bf16⟩
  | .hbm, ⟨3, _⟩ => ⟨S256x256, .f32⟩
  | .hbm, ⟨4, _⟩ => ⟨S_, .f32⟩
  | .hbm, ⟨5, _⟩ => ⟨S256, .f32⟩
  | .hbm, ⟨6, _⟩ => ⟨S1x256, .f32⟩
  | .hbm, ⟨7, _⟩ => ⟨S131072x256, .f32⟩
  | .local _ .vmem, ⟨0, _⟩ => ⟨S2048x256, .f32⟩
  | .local _ .vmem, ⟨1, _⟩ => ⟨S2048x256, .f32⟩
  | .local _ .vmem, ⟨2, _⟩ => ⟨S256x256, .bf16⟩
  | .local _ .vmem, ⟨3, _⟩ => ⟨S1x256, .f32⟩
  | .local _ .vmem, ⟨4, _⟩ => ⟨S2048x256, .f32⟩
  | .local _ .vmem, ⟨5, _⟩ => ⟨S2048x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  reducesTo_S256x256_S256_d1 : S256x256.ReducesTo [1] S256
  h_S_ : 0 < S_.numel
  bcast_S256_S1x256_1 : S256.BroadcastsInDim S1x256 (![1] : Fin 1 → Fin S1x256.rank)
  inb_S2048x256_S2048x256_0_0 : ∀ a, (![0, 0] : Fin 2 → Nat) a + S2048x256.size a ≤ S2048x256.size a
  h_S2048x256 : 0 < S2048x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  transposes_S256x256_p1_0_S256x256 : S256x256.Transposes [1, 0] S256x256
  reduces_S2048x256_S2048 : S2048x256.Reduces [1] S2048
  shapeCasts_S2048_S2048x1 : S2048.ShapeCasts S2048x1
  broadcasts_S2048x1_S2048x256 : S2048x1.Broadcasts S2048x256
  broadcasts_S1x256_S2048x256 : S1x256.Broadcasts S2048x256
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S131072x256.size a
  hwx0_3 : ∀ i : grid0.Coords, EltTy.bits .f32 = 32 ∨ (Rect.block (s := S131072x256) S2048x256.size (cc0_transform_3 i) (hinb0_3 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x256 : Shape := ⟨2, ![256, 256]⟩
abbrev S_ : Shape := ⟨0, ![]⟩
abbrev S131072 : Shape := ⟨1, ![131072]⟩
abbrev S131072x1 : Shape := ⟨2, ![131072, 1]⟩
abbrev S256 : Shape := ⟨1, ![256]⟩
abbrev S1x256 : Shape := ⟨2, ![1, 256]⟩

abbrev nBuf : Space → Nat
  | .hbm => 38
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S131072x256, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S256x256, .f32⟩
  | .hbm, ⟨7, _⟩ => ⟨S_, .f32⟩
  | .hbm, ⟨8, _⟩ => ⟨S256, .f32⟩
  | .hbm, ⟨9, _⟩ => ⟨S1x256, .f32⟩
  | .hbm, ⟨10, _⟩ => ⟨S131072x256, .f32⟩
  | .hbm, ⟨11, _⟩ => ⟨S131072x256, .f32⟩
  | .hbm, ⟨12, _⟩ => ⟨S131072x256, .f32⟩
  | .hbm, ⟨13, _⟩ => ⟨S131072x256, .f32⟩
  | .hbm, ⟨14, _⟩ => ⟨S_, .f32⟩
  | .hbm, ⟨15, _⟩ => ⟨S131072x256, .f32⟩
  | .hbm, ⟨16, _⟩ => ⟨S131072x256, .f32⟩
  | .hbm, ⟨17, _⟩ => ⟨S131072x256, .f32⟩
  | .hbm, ⟨18, _⟩ => ⟨S_, .f32⟩
  | .hbm, ⟨19, _⟩ => ⟨S131072x256, .f32⟩
  | .hbm, ⟨20, _⟩ => ⟨S131072x256, .f32⟩
  | .hbm, ⟨21, _⟩ => ⟨S_, .f32⟩
  | .hbm, ⟨22, _⟩ => ⟨S131072x256, .f32⟩
  | .hbm, ⟨23, _⟩ => ⟨S131072x256, .f32⟩
  | .hbm, ⟨24, _⟩ => ⟨S_, .f32⟩
  | .hbm, ⟨25, _⟩ => ⟨S131072x256, .f32⟩
  | .hbm, ⟨26, _⟩ => ⟨S131072x256, .f32⟩
  | .hbm, ⟨27, _⟩ => ⟨S_, .f32⟩
  | .hbm, ⟨28, _⟩ => ⟨S131072x256, .f32⟩
  | .hbm, ⟨29, _⟩ => ⟨S131072x256, .f32⟩
  | .hbm, ⟨30, _⟩ => ⟨S_, .f32⟩
  | .hbm, ⟨31, _⟩ => ⟨S131072x256, .f32⟩
  | .hbm, ⟨32, _⟩ => ⟨S131072x256, .f32⟩
  | .hbm, ⟨33, _⟩ => ⟨S_, .f32⟩
  | .hbm, ⟨34, _⟩ => ⟨S131072, .f32⟩
  | .hbm, ⟨35, _⟩ => ⟨S131072x1, .f32⟩
  | .hbm, ⟨36, _⟩ => ⟨S131072x256, .f32⟩
  | .hbm, ⟨37, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S131072_S131072x1_0 : S131072.BroadcastsInDim S131072x1 (![0] : Fin 1 → Fin S131072x1.rank)
  reducesTo_S256x256_S256_d1 : S256x256.ReducesTo [1] S256
  bcast_S256_S1x256_1 : S256.BroadcastsInDim S1x256 (![1] : Fin 1 → Fin S1x256.rank)
  bcast_S131072x1_S131072x256_0_1 : S131072x1.BroadcastsInDim S131072x256 (![0, 1] : Fin 2 → Fin S131072x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  dot_S131072x256_S256x256_S131072x256_1_1_0_0_n_n_wf : DotDims.WF S131072x256 S256x256 S131072x256 [1] [1] [0] [0] [] []

variable [Facts₀]

def dot_S131072x256_S256x256_S131072x256_1_1_0_0_n_n : DotDims S131072x256 S256x256 S131072x256 where
  lhsContracting := [1]
  rhsContracting := [1]
  lhsNonContracting := [0]
  rhsNonContracting := [0]
  lhsBatch := []
  rhsBatch := []
  wf := dot_S131072x256_S256x256_S131072x256_1_1_0_0_n_n_wf

class Facts : Prop extends Facts₀ where

variable [Facts]
-- ==== Proof.Similarity.lean ====
/-
  The soft assignment of points to cluster centres, on the extended reals.

  For a point x (a row of X, 256 features) and a centre c (a row of C) the squared distance is written out as
  |x|^2 + |c|^2 - 2 <x, c> and clamped below at zero; the similarity of the pair is 1 / (1 + d^2 / 1), the Student-t
  kernel with one degree of freedom; and each point's similarities are divided by their sum over the 256 centres.
  The function is stated with the row of the centres' squared norms as an argument of its own, so that a block of
  points beside a precomputed row of norms, and the whole array of points beside the norms computed from C, are
  instances of one definition. Every point's result depends on that point's row of X only: a block of rows of X gives
  the same rows of the result. Raising a similarity to the power one changes nothing, whatever the similarity is.
  Nothing here mentions a program.
-/
import Idealize.ShloMosaic.PureOps.Ideal
import Idealize.ShloMosaic.PureOps.Ideal.Laws
import Idealize.ShloMosaic.Lib.ValueIdx

noncomputable section

open scoped BigOperators

namespace Cert.Similarity

open Idealize.ShloMosaic Idealize.ShloMosaic.ValueIdx

/-! ## The power one -/

/-- The single-precision word 3F800000 is the real number one. -/
theorem one_word : Ideal.ofBits .f32 0x3F800000#32 = ((1 : ℝ) : EReal) := by
  simp [Ideal.ofBits, Ideal.ieee, -EReal.coe_mul]; norm_num

/-- x to the power one is x on every extended real: at the two infinities by the conventions of the power, on a real
    number because r ^ 1 = r. -/
theorem pow_one_word (x : EReal) : Ideal.pow x (Ideal.ofBits .f32 0x3F800000#32) = x := by
  rw [one_word]
  induction x using EReal.rec with
  | bot => rfl
  | coe r =>
    show ((Real.rpow r 1 : ℝ) : EReal) = (r : EReal)
    exact congrArg (fun z : ℝ => (z : EReal)) (Real.rpow_one r)
  | top =>
    show (if (0 : EReal) < ((1 : ℝ) : EReal) then (⊤ : EReal) else _) = ⊤
    rw [if_pos (EReal.coe_pos.mpr one_pos)]

/-! ## The similarity of one pair, and the assignment -/

/-- The similarity of a point and a centre from their squared norms xx, cc and their inner product xc:
    1 / (1 + max (xx + cc - 2 xc) 0 / 1). -/
def kern (xx cc xc : EReal) : EReal :=
  Ideal.div (Ideal.ofBits .f32 0x3F800000#32)
    (Ideal.ofBits .f32 0x3F800000#32
      + Ideal.div (max (xx + cc - Ideal.ofBits .f32 0x40000000#32 * xc) (Ideal.ofBits .f32 0x00000000#32))
          (Ideal.ofBits .f32 0x3F800000#32))

variable {n : Nat}

/-- The similarity of point p of X and centre k of C, the centres' squared norms given as the row cc. -/
def simWith (X : (⟨2, ![n, 256]⟩ : Shape).Idx → EReal) (C : (⟨2, ![256, 256]⟩ : Shape).Idx → EReal)
    (cc : (⟨2, ![1, 256]⟩ : Shape).Idx → EReal) (p : Fin n) (k : Fin 256) : EReal :=
  kern (∑ d : Fin 256, X (ix2 p d) * X (ix2 p d)) (cc (ix2 0 k)) (∑ d : Fin 256, X (ix2 p d) * C (ix2 k d))

/-- The assignment: entry (p, k) is the similarity of point p and centre k divided by the sum of point p's
    similarities over all centres. -/
def assignWith (X : (⟨2, ![n, 256]⟩ : Shape).Idx → EReal) (C : (⟨2, ![256, 256]⟩ : Shape).Idx → EReal)
    (cc : (⟨2, ![1, 256]⟩ : Shape).Idx → EReal) : (⟨2, ![n, 256]⟩ : Shape).Idx → EReal := fun i =>
  Ideal.div (simWith X C cc (i 0) (i 1)) (∑ k : Fin 256, simWith X C cc (i 0) k)

/-- The row of the centres' squared norms: entry (0, k) is the sum over d of C(k, d)^2. -/
def normRow (C : (⟨2, ![256, 256]⟩ : Shape).Idx → EReal) : (⟨2, ![1, 256]⟩ : Shape).Idx → EReal := fun j =>
  ∑ d : Fin 256, C (ix2 (j 1) d) * C (ix2 (j 1) d)

/-- The assignment of the points X to the centres C. -/
def assign (X : (⟨2, ![n, 256]⟩ : Shape).Idx → EReal) (C : (⟨2, ![256, 256]⟩ : Shape).Idx → EReal) :
    (⟨2, ![n, 256]⟩ : Shape).Idx → EReal :=
  assignWith X C (normRow C)

theorem assignWith_ix2 (X : (⟨2, ![n, 256]⟩ : Shape).Idx → EReal) (C : (⟨2, ![256, 256]⟩ : Shape).Idx → EReal)
    (cc : (⟨2, ![1, 256]⟩ : Shape).Idx → EReal) (p : Fin n) (k : Fin 256) :
    assignWith X C cc (ix2 p k) = Ideal.div (simWith X C cc p k) (∑ k' : Fin 256, simWith X C cc p k') := rfl

theorem normRow_ix2 (C : (⟨2, ![256, 256]⟩ : Shape).Idx → EReal) (k : Fin 256) :
    normRow C (ix2 0 k) = ∑ d : Fin 256, C (ix2 k d) * C (ix2 k d) := rfl

/-- Point p of a block Xb whose row p is row r of X is assigned as point r of X is. -/
theorem assignWith_rows {n' : Nat} (Xb : (⟨2, ![n, 256]⟩ : Shape).Idx → EReal)
    (X : (⟨2, ![n', 256]⟩ : Shape).Idx → EReal) (C : (⟨2, ![256, 256]⟩ : Shape).Idx → EReal)
    (cc : (⟨2, ![1, 256]⟩ : Shape).Idx → EReal) (p : Fin n) (r : Fin n') (k : Fin 256)
    (hX : ∀ d : Fin 256, Xb (ix2 p d) = X (ix2 r d)) :
    assignWith Xb C cc (ix2 p k) = assignWith X C cc (ix2 r k) := by
  have h : ∀ k' : Fin 256, simWith Xb C cc p k' = simWith X C cc r k' := fun k' => by
    unfold simWith
    simp only [hX]
  rw [assignWith_ix2, assignWith_ix2]
  simp only [h]

end Cert.Similarity

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.BlockAssign.lean ====
/-
  What the kernel body stores, as a function of the three blocks it loads: a block of 2048 points (rows of X), the
  256 centres (rows of C) and the row of the centres' squared norms. The body computes every point's squared norm
  as a sum along its row, every inner product of a point with a centre as a matrix product with the transposed centre
  matrix accumulated into zeros, combines the three into the similarity of each pair, and divides each row of
  similarities by its sum along the row. Entry by entry this is the assignment of the block's points to the centres.
-/
import proofs.«140133_j35570919145510_2_alg».proof.Proof.Gen.KernelIdeal.Skeleton
import proofs.«140133_j35570919145510_2_alg».proof.Proof.Similarity
import proofs.«140133_j35570919145510_2_alg».proof.Proof.LibRowReductions
import proofs.«140133_j35570919145510_2_alg».proof.Proof.LibBlockReads

noncomputable section

open scoped BigOperators

namespace Cert.KernelIdeal.Body

open Cert.KernelIdeal Cert.KernelIdeal.Gen Idealize.ShloMosaic Idealize.ShloMosaic.ValueIdx Cert.Similarity

/-! ## The three operations of the body that are not entry-by-entry -/

/-- The inner products of the block's points with the centres: the points times the transposed centre matrix, into
    zeros. -/
def cross (x0 : FVec Ideal S2048x256 .f32) (x1 : FVec Ideal S256x256 .bf16) : FVec Ideal S2048x256 .f32 :=
  matmul dot_S2048x256_S256x256_S2048x256_1_0_0_1_n_n none (truncf .bf16 x0 bitsLt_bf16_f32)
    (transpose S256x256 [1, 0] (shapeCast S256x256 x1 shapeCasts_S256x256_S256x256) transposes_S256x256_p1_0_S256x256)
    (constant S2048x256 .f32 0x00000000#32)

/-- Entry (p, k) of the product is the sum over the features d of X(p, d) · C(k, d). -/
theorem cross_at (x0 : FVec Ideal S2048x256 .f32) (x1 : FVec Ideal S256x256 .bf16) (p : Fin 2048) (k : Fin 256) :
    cross x0 x1 (ix2 p k) = ∑ d : Fin 256, x0 (ix2 p d) * x1 (ix2 k d) := by
  refine (Cert.Lib.BlockReads.matmul_zero_rows_apply dot_S2048x256_S256x256_S2048x256_1_0_0_1_n_n rfl rfl rfl rfl rfl rfl
    none _ _ p k).trans ?_
  refine Finset.sum_congr rfl fun d _ => ?_
  refine congrArg (x0 (ix2 p d) * ·) ?_
  exact (transpose_ix2_apply _ transposes_S256x256_p1_0_S256x256 d k).trans (congrFun (shapeCast_self x1 _) _)

/-- The sum along each row of a 2048×256 block, kept as a column and repeated across the 256 columns. -/
def rowSums (q : FVec Ideal S2048x256 .f32) : FVec Ideal S2048x256 .f32 :=
  broadcastTo S2048x256
    (shapeCast S2048x1 (multiReduction .add [1] S2048 q 0x00000000#32 reduces_S2048x256_S2048 (.inl rfl) rfl)
      shapeCasts_S2048_S2048x1)
    broadcasts_S2048x1_S2048x256

/-- Entry (p, k) of it is the sum of row p. -/
theorem rowSums_at (q : FVec Ideal S2048x256 .f32) (p : Fin 2048) (k : Fin 256) :
    rowSums q (ix2 p k) = ∑ k' : Fin 256, q (ix2 p k') :=
  (Cert.Lib.RowReductions.broadcast_col_apply _ broadcasts_S2048x1_S2048x256 p k).trans
    ((Cert.Lib.RowReductions.shapeCast_col_apply _ shapeCasts_S2048_S2048x1 p).trans
      (Cert.Lib.RowReductions.rowsum_apply q 0x00000000#32 reduces_S2048x256_S2048 (.inl rfl) rfl p))

/-- The row of centre norms repeated down the 2048 rows. -/
def centreNorms (x3 : FVec Ideal S1x256 .f32) : FVec Ideal S2048x256 .f32 :=
  broadcastTo S2048x256 (shapeCast S1x256 x3 shapeCasts_S1x256_S1x256) broadcasts_S1x256_S2048x256

/-- Entry (p, k) of it is the norm of centre k. -/
theorem centreNorms_at (x3 : FVec Ideal S1x256 .f32) (p : Fin 2048) (k : Fin 256) :
    centreNorms x3 (ix2 p k) = x3 (ix2 0 k) :=
  (Cert.Lib.BlockReads.broadcast_row_apply _ broadcasts_S1x256_S2048x256 p k).trans
    (congrFun (shapeCast_self x3 _) _)

/-! ## The body's value -/

variable (x0 : FVec Ideal S2048x256 .f32) (x1 : FVec Ideal S256x256 .bf16) (x3 : FVec Ideal S1x256 .f32)

/-- The block of similarities the body forms before it normalises. -/
def simBlock : FVec Ideal S2048x256 .f32 := fun j =>
  kern (rowSums (mulf x0 x0) j) (centreNorms x3 j) (cross x0 x1 j)

/-- The stored value is the block of similarities divided by its row sums. -/
theorem pay_split : k0_pay1 (F := Ideal) x0 x1 x3 = divf (simBlock x0 x1 x3) (rowSums (simBlock x0 x1 x3)) := rfl

/-- Entry (p, k) of the block of similarities is the similarity of point p and centre k. -/
theorem simBlock_at (p : Fin 2048) (k : Fin 256) : simBlock x0 x1 x3 (ix2 p k) = simWith x0 x1 x3 p k := by
  show kern _ _ _ = kern _ _ _
  rw [rowSums_at, centreNorms_at, cross_at]
  rfl

/-- The stored value is the assignment of the block's points. -/
theorem pay_eq : k0_pay1 (F := Ideal) x0 x1 x3 = assignWith x0 x1 x3 := by
  rw [pay_split]
  funext i
  obtain ⟨p, k, rfl⟩ : ∃ (p : Fin 2048) (k : Fin 256), i = ix2 p k := ⟨i 0, i 1, eq_ix2 i⟩
  rw [assignWith_ix2, divf_apply, rowSums_at, simBlock_at]
  simp only [simBlock_at]

end Cert.KernelIdeal.Body

end
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«140133_j35570919145510_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibHostRows.lean ====
/-
  The reference's sum along each row of an a×b array, on the extended reals, read at an index: the initial value plus
  the sum over the row's entries. Nothing here mentions a program.
-/
import Idealize.ShloMosaic.PureOps.Ideal
import Idealize.ShloMosaic.PureOps.Ideal.Laws
import Idealize.ShloMosaic.Lib.ValueIdx
import proofs.«140133_j35570919145510_2_alg».proof.Proof.LibRowReductions

open scoped BigOperators

namespace Cert.Lib.HostRows

open Idealize.ShloMosaic Idealize.ShloMosaic.ValueIdx

variable {a b : Nat}

/-- The reference's one-operand reduce with an add body along each row of an a×b array is at p the initial value's
    element plus the sum over k of the array at (p, k). -/
theorem host_rowsum_apply {u : Shape} (x : FVec Ideal ⟨2, ![a, b]⟩ .f32) (init : u.Idx → Ideal .f32)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  simp only [Host.reduceAdd, Ideal.hostReduceAdd_def]
  rw [Ideal.hostReduceAdd_single h' h]
  exact congrArg (_ + ·) (Finset.sum_congr rfl fun k _ => congrArg x (Cert.Lib.RowReductions.lift_row h p k))

end Cert.Lib.HostRows
-- ==== Proof.Entry.lean ====
/-
  What the region finds in the arrays of its second and third operands. Before the region the program rounds the
  centre matrix C to a shorter format, which on the extended reals changes nothing, and computes the row of the
  centres' squared norms: the sum along each row of C of the squares, from a zero initial value, re-laid as a 1×256
  row. So the region finds C itself and the row of norms of C.
-/
import proofs.«140133_j35570919145510_2_alg».proof.Proof.Gen.KernelIdeal.Frame
import proofs.«140133_j35570919145510_2_alg».proof.Proof.Similarity
import proofs.«140133_j35570919145510_2_alg».proof.Proof.LibRowVector
import proofs.«140133_j35570919145510_2_alg».proof.Proof.LibHostRows
import Idealize.ShloMosaic.Lib.StableHlo.Run

noncomputable section

open scoped BigOperators

namespace Cert.KernelIdeal.Entry

open Cert.KernelIdeal Cert.KernelIdeal.Gen Idealize.ShloMosaic Idealize.ShloMosaic.TcCoe Idealize.SL.Sem
open Idealize.ShloMosaic.ValueIdx Cert.Similarity

variable (m : (ℓ : Loc nD τ sig) → Buf (Elt Ideal) ℓ)

/-- The centres as the region finds them are the centres as launched. -/
theorem centres_found (c : Dev nD) :
    (V m c main_v0 : S256x256.Idx → EReal) = (m ((c : Thread nD τ).loc main_arg1) : S256x256.Idx → EReal) := by
  have e : (V m c main_v0 : S256x256.Idx → EReal)
      = truncf (F := Ideal) .bf16 (m ((c : Thread nD τ).loc main_arg1) : FVec Ideal S256x256 .f32) bitsLt_bf16_f32 := by
    dsimp only [Gen.V, Gen.hostOps0]; after_results
  exact e

/-- The row of norms as the region finds it is the row of squared norms of the centres as launched. -/
theorem norms_found (c : Dev nD) :
    (V m c main_v3 : S1x256.Idx → EReal) = normRow (m ((c : Thread nD τ).loc main_arg1) : S256x256.Idx → EReal) := by
  have e : (V m c main_v3 : S1x256.Idx → EReal)
      = broadcastInDim S1x256 ![1] bcast_S256_S1x256_1
          (Host.reduceAdd (F := Ideal)
            (mulf (m ((c : Thread nD τ).loc main_arg1) : FVec Ideal S256x256 .f32) (m ((c : Thread nD τ).loc main_arg1)))
            (constant (F := Ideal) S_ .f32 0x00000000#32) reducesTo_S256x256_S256_d1 h_S_) := by
    dsimp only [Gen.V, Gen.hostOps0]; after_results
  rw [e, Cert.Lib.RowVector.bcastInDim_eq_asRow]
  funext j
  obtain ⟨k, rfl⟩ : ∃ k : Fin 256, j = ix2 0 k := ⟨j 1, Cert.Lib.RowVector.idx_row j⟩
  refine (Cert.Lib.RowVector.asRow_apply _ k).trans ?_
  refine (Cert.Lib.HostRows.host_rowsum_apply _ _ reducesTo_S256x256_S256_d1 h_S_ k).trans ?_
  show Ideal.ofBits .f32 0x00000000#32 + _ = _
  rw [Ideal.ofBits_zero_f32, zero_add]
  rfl

end Cert.KernelIdeal.Entry

end
-- ==== Proof.Whole.lean ====
/-
  From blocks to the whole array. Grid point t works on rows 2048 t … 2048 t + 2047: its block of points is those
  rows of X, its block of centres is all of C, its row of norms is the whole row, and it writes those rows of the
  result. A point's assignment depends on its own row of X only, so what point t writes is those rows of the
  assignment of all of X to C; the 64 blocks of rows cover the array (row i lies in block i / 2048), so the array ends
  holding the assignment.
-/
import proofs.«140133_j35570919145510_2_alg».proof.Proof.Gen.KernelIdeal.Value
import proofs.«140133_j35570919145510_2_alg».proof.Proof.BlockAssign
import proofs.«140133_j35570919145510_2_alg».proof.Proof.Entry

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.Similarity
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at grid point t, decided over the 64 points: the points' and the result's blocks
    are block t of rows, the centres' and the norms' blocks are the whole arrays. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The blocks at a grid point -/

/-- Row p of the points' block at t is row 2048 t + p of X. -/
theorem points_block (c : Dev nD) (t : Fin cfg0.N) (p : Fin 2048) (d : Fin 256) (r : Fin 131072)
    (hr : r.val = 2048 * t.val + p.val) :
    (iblk m c 0 t : S2048x256.Idx → EReal) (ix2 p d)
      = (m ((c : Thread nD τ).loc main_arg0) : S131072x256.Idx → EReal) (ix2 r d) := by
  obtain ⟨e0, e1, -⟩ := block_indices t
  unfold iblk
  rw [View.read_apply]
  show V m c main_arg0 _ = _
  rw [V_main_arg0]
  refine congrArg (m ((c : Thread nD τ).loc main_arg0) : S131072x256.Idx → EReal) (funext fun a => Fin.ext ?_)
  match a with
  | ⟨0, _⟩ => show win0_0.index t 0 * 2048 + 1 * p.val = r.val; rw [e0, hr]; omega
  | ⟨1, _⟩ => show win0_0.index t 1 * 256 + 1 * d.val = d.val; rw [e1]; omega

/-- The centres' block at every point is C. -/
theorem centres_block (c : Dev nD) (t : Fin cfg0.N) :
    (iblk m c 1 t : S256x256.Idx → EReal) = (m ((c : Thread nD τ).loc main_arg1) : S256x256.Idx → EReal) := by
  obtain ⟨-, -, e2, e3, -⟩ := block_indices t
  funext y
  unfold iblk
  rw [View.read_apply]
  show V m c main_v0 _ = _
  refine (congrFun (Entry.centres_found m c) _).trans ?_
  refine congrArg (m ((c : Thread nD τ).loc main_arg1) : S256x256.Idx → EReal) (funext fun a => Fin.ext ?_)
  match a with
  | ⟨0, _⟩ => show win0_1.index t 0 * 256 + 1 * (y 0).val = (y 0).val; rw [e2]; omega
  | ⟨1, _⟩ => show win0_1.index t 1 * 256 + 1 * (y 1).val = (y 1).val; rw [e3]; omega

/-- The norms' block at every point is the row of squared norms of C. -/
theorem norms_block (c : Dev nD) (t : Fin cfg0.N) :
    (iblk m c 2 t : S1x256.Idx → EReal) = normRow (m ((c : Thread nD τ).loc main_arg1) : S256x256.Idx → EReal) := by
  obtain ⟨-, -, -, -, e4, e5, -⟩ := block_indices t
  funext y
  unfold iblk
  rw [View.read_apply]
  show V m c main_v3 _ = _
  refine (congrFun (Entry.norms_found m c) _).trans ?_
  refine congrArg (normRow (m ((c : Thread nD τ).loc main_arg1) : S256x256.Idx → EReal)) (funext fun a => Fin.ext ?_)
  match a with
  | ⟨0, _⟩ => show win0_2.index t 0 * 1 + 1 * (y 0).val = (y 0).val; rw [e4]; omega
  | ⟨1, _⟩ => show win0_2.index t 1 * 256 + 1 * (y 1).val = (y 1).val; rw [e5]; omega

/-- Entry (p, k) of the result's block at t is entry (2048 t + p, k) of the array. -/
theorem result_index (t : Fin cfg0.N) (p : Fin 2048) (k : Fin 256) (r : Fin 131072) (hr : r.val = 2048 * t.val + p.val) :
    (((cfg0.win 3).blk t).view.emb (ix2 p k) : S131072x256.Idx) = ix2 r k := by
  obtain ⟨-, -, -, -, -, -, e6, e7⟩ := block_indices t
  funext a
  apply Fin.ext
  match a with
  | ⟨0, _⟩ => show win0_3.index t 0 * 2048 + 1 * p.val = r.val; rw [e6, hr]; omega
  | ⟨1, _⟩ => show win0_3.index t 1 * 256 + 1 * k.val = k.val; rw [e7]; omega

/-! ## What a point writes back, and the array after the run -/

/-- Grid point t writes back its block of rows of the assignment of X to C. -/
theorem flushed_eq (c : Dev nD) (t : Fin cfg0.N) :
    (dats m 0 c).flushed 3 t = ((cfg0.win 3).blk t).view.read (Elt Ideal)
      (assign (m ((c : Thread nD τ).loc main_arg0) : S131072x256.Idx → EReal) (m ((c : Thread nD τ).loc main_arg1))) := by
  rw [Value.flushed3]
  unfold out0_3
  rw [View.canon_unit_zero zero_offsets]
  simp only [View.ld_unit_zero (S := S2048x256) zero_offsets, View.ld_unit_zero (S := S256x256) zero_offsets,
    View.ld_unit_zero (S := S1x256) zero_offsets]
  rw [Body.pay_eq]
  funext (j : S2048x256.Idx)
  obtain ⟨p, k, rfl⟩ : ∃ (p : Fin 2048) (k : Fin 256), j = ix2 p k := ⟨j 0, j 1, eq_ix2 j⟩
  have hN : cfg0.N = 64 := N_0
  have ht : t.val < cfg0.N := t.isLt
  have hr : 2048 * t.val + p.val < 131072 := by have := p.isLt; omega
  show assignWith (iblk m c 0 t : S2048x256.Idx → EReal) (iblk m c 1 t : S256x256.Idx → EReal)
      (iblk m c 2 t : S1x256.Idx → EReal) (ix2 p k)
    = assign (m ((c : Thread nD τ).loc main_arg0) : S131072x256.Idx → EReal) (m ((c : Thread nD τ).loc main_arg1))
        (((cfg0.win 3).blk t).view.emb (ix2 p k))
  rw [result_index t p k ⟨_, hr⟩ rfl, centres_block, norms_block]
  exact assignWith_rows _ _ _ _ p ⟨_, hr⟩ k (fun d => points_block m c t p d _ rfl)

/-- An index of the array is in point t's block when each coordinate is in the block's range on its axis. -/
theorem mem_block (t : Fin cfg0.N) (i : S131072x256.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v4).slice (win0_3.rect t)).set ↔ _
  rw [View.set_slice_whole, Rect.mem_set_unit]
  exact Iff.rfl

/-- Every index of the array is in the block of the point its row belongs to. -/
theorem covered (i : S131072x256.Idx) :
    ∃ t : Fin cfg0.N, (cfg0.win 3).flush t = true ∧ i ∈ ((cfg0.win 3).blk t).view.set := by
  have hN : cfg0.N = 64 := N_0
  have h0 : (i 0).val < 131072 := (i 0).isLt
  have h1 : (i 1).val < 256 := (i 1).isLt
  obtain ⟨t, ht⟩ : ∃ t : Fin cfg0.N, t.val = (i 0).val / 2048 := ⟨⟨(i 0).val / 2048, by omega⟩, rfl⟩
  obtain ⟨-, -, -, -, -, -, e6, e7⟩ := block_indices t
  refine ⟨t, flush0_3 t, ?_⟩
  rw [mem_block]
  intro a
  match a with
  | ⟨0, _⟩ =>
    show win0_3.index t 0 * 2048 ≤ (i 0).val ∧ (i 0).val < win0_3.index t 0 * 2048 + 2048
    rw [e6, ht]; omega
  | ⟨1, _⟩ =>
    show win0_3.index t 1 * 256 ≤ (i 1).val ∧ (i 1).val < win0_3.index t 1 * 256 + 256
    rw [e7]; omega

/-- The result array after the run is the assignment of X to C. -/
theorem final (c : Dev nD) : (dats m 0 c).arrAt 3 cfg0.N
    = assign (m ((c : Thread nD τ).loc main_arg0) : S131072x256.Idx → EReal) (m ((c : Thread nD τ).loc main_arg1)) :=
  (dats m 0 c).arrAt_eq_of_cover 3 _ (fun t _ => flushed_eq m c t) covered

/-- The run: the result array at the assignment of the arguments, the arguments unchanged. -/
theorem run : θ_run defs (onTc (τ := τ) (main (F := Ideal))) ⟨m, fun _ => 0, ρ⟩ fun r => ∀ c : Dev nD,
      r.2.mem ((c : Thread nD τ).loc main_v4)
        = assign (m ((c : Thread nD τ).loc main_arg0) : S131072x256.Idx → EReal) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefSide.lean ====
/-
  The reference computes the assignment. Read one operation at a time at the entry (n, k): the two keepdims
  broadcasts give the squared norm of point n (a sum over the 256 features of row n of X, added to a zero initial
  value) and of centre k (the same over row k of C); the product of X with the transpose of C gives the inner product
  of row n of X with row k of C; the elementwise operations give the similarity of the pair, whose power one is itself;
  and the last three operations divide by the sum of point n's similarities over the 256 centres.
-/
import proofs.«140133_j35570919145510_2_alg».proof.Proof.Gen.ReferenceIdeal.Read
import proofs.«140133_j35570919145510_2_alg».proof.Proof.Similarity

noncomputable section

open scoped BigOperators

namespace Cert.ReferenceIdeal.RefValue

open Cert.ReferenceIdeal Cert.ReferenceIdeal.Read Idealize.ShloMosaic Idealize.ShloMosaic.ValueIdx Cert.Similarity

/-! ## Which entries each stage reads -/

/-- The squared norm broadcast to (n, k) sums row n of X. -/
theorem point_row (n : Fin 131072) (k d : Fin 256) :
    idx_main_v1 (idx_main_v2 (idx_main_v7 (ix2 n k))) d = ix2 n d :=
  funext fun a => Fin.ext (by match a with | ⟨0, _⟩ => rfl | ⟨1, _⟩ => rfl)

/-- The squared norm broadcast to (n, k) from the row of centre norms sums row k of C. -/
theorem centre_row (n : Fin 131072) (k d : Fin 256) :
    idx_main_v4 (idx_main_v5 (idx_main_v8 (ix2 n k))) d = ix2 k d :=
  funext fun a => Fin.ext (by match a with | ⟨0, _⟩ => rfl | ⟨1, _⟩ => rfl)

/-- The product at (n, k) contracts row n of X … -/
theorem left_row (n : Fin 131072) (k d : Fin 256) : lidx_main_v6 (ix2 n k) d = ix2 n d :=
  funext fun a => Fin.ext (by match a with | ⟨0, _⟩ => rfl | ⟨1, _⟩ => rfl)

/-- … with row k of C. -/
theorem right_row (n : Fin 131072) (k d : Fin 256) : ridx_main_v6 (ix2 n k) d = ix2 k d :=
  funext fun a => Fin.ext (by match a with | ⟨0, _⟩ => rfl | ⟨1, _⟩ => rfl)

/-- The normaliser broadcast to (n, k) sums row n of the similarities. -/
theorem sim_row (n : Fin 131072) (k k' : Fin 256) :
    idx_main_v23 (idx_main_v24 (idx_main_v25 (ix2 n k))) k' = ix2 n k' :=
  funext fun a => Fin.ext (by match a with | ⟨0, _⟩ => rfl | ⟨1, _⟩ => rfl)

/-! ## The stages at an entry -/

variable (X : (⟨S131072x256, .f32⟩ : BufTy).Contents (Elt Ideal)) (C : (⟨S256x256, .f32⟩ : BufTy).Contents (Elt Ideal))

/-- The stage before the normalisation is the similarity of point n and centre k. -/
theorem sim_at (n : Fin 131072) (k : Fin 256) :
    val_main_v22 (F := Ideal) X C (ix2 n k) = simWith X C (normRow C) n k := by
  rw [val_main_v22_apply, val_main_v21_apply, val_main_cst_6_apply, val_main_v20_apply, val_main_v19_apply,
    val_main_cst_5_apply, val_main_v18_apply, val_main_v17_apply, val_main_cst_4_apply, val_main_v16_apply,
    val_main_v15_apply, val_main_cst_3_apply, val_main_v14_apply, val_main_v13_apply, val_main_cst_2_apply,
    val_main_v12_apply, val_main_v9_apply, val_main_v7_apply, val_main_v2_apply, val_main_v1_apply,
    val_main_cst_apply, val_main_v8_apply, val_main_v5_apply, val_main_v4_apply, val_main_cst_0_apply,
    val_main_v11_apply, val_main_v10_apply, val_main_cst_1_apply, val_main_v6_apply]
  simp only [val_main_v0_apply, val_main_v3_apply, point_row, centre_row, left_row, right_row,
    Ideal.hostPowf_def, Ideal.hostDivf_def, Ideal.addf_def, Ideal.subf_def, Ideal.mulf_def, Ideal.maximumf_def,
    Ideal.ofBits_def, pow_one_word, simWith, kern, normRow_ix2, Ideal.ofBits_zero_f32, zero_add]

/-- The result stage is the assignment. -/
theorem result_eq : val_main_v26 (F := Ideal) X C = assign X C := by
  funext i
  obtain ⟨n, k, rfl⟩ : ∃ (n : Fin 131072) (k : Fin 256), i = ix2 n k := ⟨i 0, i 1, eq_ix2 i⟩
  rw [val_main_v26_apply, val_main_v25_apply, val_main_v24_apply, val_main_v23_apply, val_main_cst_7_apply, sim_at]
  simp only [sim_row, sim_at, Ideal.hostDivf_def, Ideal.ofBits_def, Ideal.ofBits_zero_f32, zero_add]
  rfl

end Cert.ReferenceIdeal.RefValue

end
-- ==== Proof.lean ====
/-
  A kernel that assigns 131072 points to 256 cluster centres agrees, on the extended reals, with its reference.

  Both programs compute, for a point x (a row of X) and a centre c (a row of C), the squared distance
  |x|^2 + |c|^2 - 2 <x, c> clamped below at zero, the Student-t similarity 1 / (1 + d^2 / 1), and the similarity
  divided by the sum of the point's similarities over the centres. The kernel works on 64 blocks of 2048 points; it
  takes the centres rounded to a shorter format (the identity on the extended reals) and the row of the centres'
  squared norms computed once before the blocks, forms the inner products as a matrix product with the transposed
  centre matrix and the squared norms and normalisers as sums along rows. The reference does the same on the whole
  arrays and raises each similarity to the power one, which changes no extended real. A point's result depends on
  its own row of X only, so the blocks' results are the rows of one function of X and C (Proof/Similarity.lean), which
  is also what the reference computes (Proof/RefSide.lean); the blocks cover the array (Proof/Whole.lean). No step uses
  that the inputs are finite. The idealization rewrote nothing, so there is nothing to preserve.
-/
import proofs.«140133_j35570919145510_2_alg».proof.Defs
import proofs.«140133_j35570919145510_2_alg».proof.Proof.Gen.Kernel
import proofs.«140133_j35570919145510_2_alg».proof.Proof.Gen.Kernel.Skeleton
import proofs.«140133_j35570919145510_2_alg».proof.Proof.Gen.Kernel.Launch
import proofs.«140133_j35570919145510_2_alg».proof.Proof.Gen.Kernel.Points
import proofs.«140133_j35570919145510_2_alg».proof.Proof.Gen.Kernel.Frame
import proofs.«140133_j35570919145510_2_alg».proof.Proof.Gen.KernelIdeal
import proofs.«140133_j35570919145510_2_alg».proof.Proof.Gen.KernelIdeal.Skeleton
import proofs.«140133_j35570919145510_2_alg».proof.Proof.Gen.KernelIdeal.Launch
import proofs.«140133_j35570919145510_2_alg».proof.Proof.Gen.KernelIdeal.Points
import proofs.«140133_j35570919145510_2_alg».proof.Proof.Gen.KernelIdeal.Frame
import proofs.«140133_j35570919145510_2_alg».proof.Proof.Gen.ReferenceIdeal
import proofs.«140133_j35570919145510_2_alg».proof.Proof.Gen.Pre_finite_inputs
import proofs.«140133_j35570919145510_2_alg».proof.Proof.Gen.KernelIdeal.Value
import proofs.«140133_j35570919145510_2_alg».proof.Proof.Gen.ReferenceIdeal.Run
import proofs.«140133_j35570919145510_2_alg».proof.Proof.Gen.ReferenceIdeal.Read
import proofs.«140133_j35570919145510_2_alg».proof.Proof.Whole
import proofs.«140133_j35570919145510_2_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the assignment of the points to the centres. -/
theorem algebraic : Cert.algebraic_KernelIdeal_ReferenceIdeal := by
  intro m ρ m' ρ' _ hagree
  refine ⟨fun c => Cert.Similarity.assign
      (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
